-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096x32 : Shape := ⟨2, ![4096, 32]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2x2048x4096 .f32) (main_arg1 : IVec S4096x4096 32) (main_arg2 : FVec F S4096x32 .f32) (main_arg3 : FVec F S4096x32 .f32) (main_arg4 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2x2048x4096 : Shape := ⟨3, ![2, 2048, 4096]⟩
abbrev S4096x4096 : Shape := ⟨2, ![4096, 4096]⟩
abbrev S4096x32 : Shape := ⟨2, ![4096, 32]⟩
abbrev S4096 : Shape := ⟨1, ![4096]⟩
abbrev S256x4096 : Shape := ⟨2, ![256, 4096]⟩
abbrev S512x4096 : Shape := ⟨2, ![512, 4096]⟩
abbrev S512x32 : Shape := ⟨2, ![512, 32]⟩
abbrev S512 : Shape := ⟨1, ![512]⟩
abbrev S256x512 : Shape := ⟨2, ![256, 512]⟩
abbrev S256x128 : Shape := ⟨2, ![256, 128]⟩
abbrev S512x128 : Shape := ⟨2, ![512, 128]⟩
abbrev S512x1 : Shape := ⟨2, ![512, 1]⟩
abbrev S1x512 : Shape := ⟨2, ![1, 512]⟩

abbrev nBuf : Space → Nat
  | .hbm => 8
  | .vmem => 13
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S2x2048x4096, .f32⟩
  | .local _ .vmem, ⟨0, _⟩ => ⟨S256x4096, .f32⟩
  | .local _ .vmem, ⟨1, _⟩ => ⟨S256x4096, .f32⟩
  | .local _ .vmem, ⟨2, _⟩ => ⟨S512x4096, .i32⟩
  | .local _ .vmem, ⟨3, _⟩ => ⟨S512x4096, .i32⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S512x32, .f32⟩
  | .local _ .vmem, ⟨8, _⟩ => ⟨S512, .f32⟩
  | .local _ .vmem, ⟨9, _⟩ => ⟨S512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x2048x4096_S4096x4096 : S2x2048x4096.ShapeCasts S4096x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x4096_S256x128_0_0 : ∀ a, (![0, 0] : Fin 2 → Nat) a + S256x128.size a ≤ S256x4096.size a
  h_S256x128 : 0 < S256x128.numel
  shapeCasts_S256x128_S256x128 : S256x128.ShapeCasts S256x128
  inb_S512x4096_S512x128_0_0 : ∀ a, (![0, 0] : Fin 2 → Nat) a + S512x128.size a ≤ S512x4096.size a
  h_S512x128 : 0 < S512x128.numel
  inb_S512x32_S512x1_0_0 : ∀ a, (![0, 0] : Fin 2 → Nat) a + S512x1.size a ≤ S512x32.size a
  h_S512x1 : 0 < S512x1.numel
  broadcasts_S512x1_S512x128 : S512x1.Broadcasts S512x128
  bitsLt_bf16_f32 : FTy.bits .bf16 < FTy.bits .f32
  inb_S256x4096_S256x128_0_128 : ∀ a, (![0, 128] : Fin 2 → Nat) a + S256x128.size a ≤ S256x4096.size a
  inb_S512x4096_S512x128_0_128 : ∀ a, (![0, 128] : Fin 2 → Nat) a + S512x128.size a ≤ S512x4096.size a
  inb_S512x32_S512x1_0_1 : ∀ a, (![0, 1] : Fin 2 → Nat) a + S512x1.size a ≤ S512x32.size a
  inb_S256x4096_S256x128_0_256 : ∀ a, (![0, 256] : Fin 2 → Nat) a + S256x128.size a ≤ S256x4096.size a
  inb_S512x4096_S512x128_0_256 : ∀ a, (![0, 256] : Fin 2 → Nat) a + S512x128.size a ≤ S512x4096.size a
  inb_S512x32_S512x1_0_2 : ∀ a, (![0, 2] : Fin 2 → Nat) a + S512x1.size a ≤ S512x32.size a
  inb_S256x4096_S256x128_0_384 : ∀ a, (![0, 384] : Fin 2 → Nat) a + S256x128.size a ≤ S256x4096.size a
  inb_S512x4096_S512x128_0_384 : ∀ a, (![0, 384] : Fin 2 → Nat) a + S512x128.size a ≤ S512x4096.size a
  inb_S512x32_S512x1_0_3 : ∀ a, (![0, 3] : Fin 2 → Nat) a + S512x1.size a ≤ S512x32.size a
  inb_S256x4096_S256x128_0_512 : ∀ a, (![0, 512] : Fin 2 → Nat) a + S256x128.size a ≤ S256x4096.size a
  inb_S512x4096_S512x128_0_512 : ∀ a, (![0, 512] : Fin 2 → Nat) a + S512x128.size a ≤ S512x4096.size a
  inb_S512x32_S512x1_0_4 : ∀ a, (![0, 4] : Fin 2 → Nat) a + S512x1.size a ≤ S512x32.size a
  inb_S256x4096_S256x128_0_640 : ∀ a, (![0, 640] : Fin 2 → Nat) a + S256x128.size a ≤ S256x4096.size a
  inb_S512x4096_S512x128_0_640 : ∀ a, (![0, 640] : Fin 2 → Nat) a + S512x128.size a ≤ S512x4096.size a
  inb_S512x32_S512x1_0_5 : ∀ a, (![0, 5] : Fin 2 → Nat) a + S512x1.size a ≤ S512x32.size a
  inb_S256x4096_S256x128_0_768 : ∀ a, (![0, 768] : Fin 2 → Nat) a + S256x128.size a ≤ S256x4096.size a
  inb_S512x4096_S512x128_0_768 : ∀ a, (![0, 768] : Fin 2 → Nat) a + S512x128.size a ≤ S512x4096.size a
  inb_S512x32_S512x1_0_6 : ∀ a, (![0, 6] : Fin 2 → Nat) a + S512x1.size a ≤ S512x32.size a
  inb_S256x4096_S256x128_0_896 : ∀ a, (![0, 896] : Fin 2 → Nat) a + S256x128.size a ≤ S256x4096.size a
  inb_S512x4096_S512x128_0_896 : ∀ a, (![0, 896] : Fin 2 → Nat) a + S512x128.size a ≤ S512x4096.size a
  inb_S512x32_S512x1_0_7 : ∀ a, (![0, 7] : Fin 2 → Nat) a + S512x1.size a ≤ S512x32.size a
  inb_S256x4096_S256x128_0_1024 : ∀ a, (![0, 1024] : Fin 2 → Nat) a + S256x128.size a ≤ S256x4096.size a
  inb_S512x4096_S512x128_0_1024 : ∀ a, (![0, 1024] : Fin 2 → Nat) a + S512x128.size a ≤ S512x4096.size a
  inb_S512x32_S512x1_0_8 : ∀ a, (![0, 8] : Fin 2 → Nat) a + S512x1.size a ≤ S512x32.size a
  inb_S256x4096_S256x128_0_1152 : ∀ a, (![0, 1152] : Fin 2 → Nat) a + S256x128.size a ≤ S256x4096.size a
  inb_S512x4096_S512x128_0_1152 : ∀ a, (![0, 1152] : Fin 2 → Nat) a + S512x128.size a ≤ S512x4096.size a
  inb_S512x32_S512x1_0_9 : ∀ a, (![0, 9] : Fin 2 → Nat) a + S512x1.size a ≤ S512x32.size a
  inb_S256x4096_S256x128_0_1280 : ∀ a, (![0, 1280] : Fin 2 → Nat) a + S256x128.size a ≤ S256x4096.size a
  inb_S512x4096_S512x128_0_1280 : ∀ a, (![0, 1280] : Fin 2 → Nat) a + S512x128.size a ≤ S512x4096.size a
  inb_S512x32_S512x1_0_10 : ∀ a, (![0, 10] : Fin 2 → Nat) a + S512x1.size a ≤ S512x32.size a
  inb_S256x4096_S256x128_0_1408 : ∀ a, (![0, 1408] : Fin 2 → Nat) a + S256x128.size a ≤ S256x4096.size a
  inb_S512x4096_S512x128_0_1408 : ∀ a, (![0, 1408] : Fin 2 → Nat) a + S512x128.size a ≤ S512x4096.size a
  inb_S512x32_S512x1_0_11 : ∀ a, (![0, 11] : Fin 2 → Nat) a + S512x1.size a ≤ S512x32.size a
  inb_S256x4096_S256x128_0_1536 : ∀ a, (![0, 1536] : Fin 2 → Nat) a + S256x128.size a ≤ S256x4096.size a
  inb_S512x4096_S512x128_0_1536 : ∀ a, (![0, 1536] : Fin 2 → Nat) a + S512x128.size a ≤ S512x4096.size a
  inb_S512x32_S512x1_0_12 : ∀ a, (![0, 12] : Fin 2 → Nat) a + S512x1.size a ≤ S512x32.size a
  inb_S256x4096_S256x128_0_1664 : ∀ a, (![0, 1664] : Fin 2 → Nat) a + S256x128.size a ≤ S256x4096.size a
  inb_S512x4096_S512x128_0_1664 : ∀ a, (![0, 1664] : Fin 2 → Nat) a + S512x128.size a ≤ S512x4096.size a
  inb_S512x32_S512x1_0_13 : ∀ a, (![0, 13] : Fin 2 → Nat) a + S512x1.size a ≤ S512x32.size a
  inb_S256x4096_S256x128_0_1792 : ∀ a, (![0, 1792] : Fin 2 → Nat) a + S256x128.size a ≤ S256x4096.size a
  inb_S512x4096_S512x128_0_1792 : ∀ a, (![0, 1792] : Fin 2 → Nat) a + S512x128.size a ≤ S512x4096.size a
  inb_S512x32_S512x1_0_14 : ∀ a, (![0, 14] : Fin 2 → Nat) a + S512x1.size a ≤ S512x32.size a
  inb_S256x4096_S256x128_0_1920 : ∀ a, (![0, 1920] : Fin 2 → Nat) a + S256x128.size a ≤ S256x4096.size a
  inb_S512x4096_S512x128_0_1920 : ∀ a, (![0, 1920] : Fin 2 → Nat) a + S512x128.size a ≤ S512x4096.size a
  inb_S512x32_S512x1_0_15 : ∀ a, (![0, 15] : Fin 2 → Nat) a + S512x1.size a ≤ S512x32.size a
  inb_S256x4096_S256x128_0_2048 : ∀ a, (![0, 2048] : Fin 2 → Nat) a + S256x128.size a ≤ S256x4096.size a
  inb_S512x4096_S512x128_0_2048 : ∀ a, (![0, 2048] : Fin 2 → Nat) a + S512x128.size a ≤ S512x4096.size a
  inb_S512x32_S512x1_0_16 : ∀ a, (![0, 16] : Fin 2 → Nat) a + S512x1.size a ≤ S512x32.size a
  inb_S256x4096_S256x128_0_2176 : ∀ a, (![0, 2176] : Fin 2 → Nat) a + S256x128.size a ≤ S256x4096.size a
  inb_S512x4096_S512x128_0_2176 : ∀ a, (![0, 2176] : Fin 2 → Nat) a + S512x128.size a ≤ S512x4096.size a
  inb_S512x32_S512x1_0_17 : ∀ a, (![0, 17] : Fin 2 → Nat) a + S512x1.size a ≤ S512x32.size a
  inb_S256x4096_S256x128_0_2304 : ∀ a, (![0, 2304] : Fin 2 → Nat) a + S256x128.size a ≤ S256x4096.size a
  inb_S512x4096_S512x128_0_2304 : ∀ a, (![0, 2304] : Fin 2 → Nat) a + S512x128.size a ≤ S512x4096.size a
  inb_S512x32_S512x1_0_18 : ∀ a, (![0, 18] : Fin 2 → Nat) a + S512x1.size a ≤ S512x32.size a
  inb_S256x4096_S256x128_0_2432 : ∀ a, (![0, 2432] : Fin 2 → Nat) a + S256x128.size a ≤ S256x4096.size a
  inb_S512x4096_S512x128_0_2432 : ∀ a, (![0, 2432] : Fin 2 → Nat) a + S512x128.size a ≤ S512x4096.size a
  inb_S512x32_S512x1_0_19 : ∀ a, (![0, 19] : Fin 2 → Nat) a + S512x1.size a ≤ S512x32.size a
  inb_S256x4096_S256x128_0_2560 : ∀ a, (![0, 2560] : Fin 2 → Nat) a + S256x128.size a ≤ S256x4096.size a
  inb_S512x4096_S512x128_0_2560 : ∀ a, (![0, 2560] : Fin 2 → Nat) a + S512x128.size a ≤ S512x4096.size a
  inb_S512x32_S512x1_0_20 : ∀ a, (![0, 20] : Fin 2 → Nat) a + S512x1.size a ≤ S512x32.size a
  inb_S256x4096_S256x128_0_2688 : ∀ a, (![0, 2688] : Fin 2 → Nat) a + S256x128.size a ≤ S256x4096.size a
  inb_S512x4096_S512x128_0_2688 : ∀ a, (![0, 2688] : Fin 2 → Nat) a + S512x128.size a ≤ S512x4096.size a
  inb_S512x32_S512x1_0_21 : ∀ a, (![0, 21] : Fin 2 → Nat) a + S512x1.size a ≤ S512x32.size a
  inb_S256x4096_S256x128_0_2816 : ∀ a, (![0, 2816] : Fin 2 → Nat) a + S256x128.size a ≤ S256x4096.size a
  inb_S512x4096_S512x128_0_2816 : ∀ a, (![0, 2816] : Fin 2 → Nat) a + S512x128.size a ≤ S512x4096.size a
  inb_S512x32_S512x1_0_22 : ∀ a, (![0, 22] : Fin 2 → Nat) a + S512x1.size a ≤ S512x32.size a
  inb_S256x4096_S256x128_0_2944 : ∀ a, (![0, 2944] : Fin 2 → Nat) a + S256x128.size a ≤ S256x4096.size a
  inb_S512x4096_S512x128_0_2944 : ∀ a, (![0, 2944] : Fin 2 → Nat) a + S512x128.size a ≤ S512x4096.size a
  inb_S512x32_S512x1_0_23 : ∀ a, (![0, 23] : Fin 2 → Nat) a + S512x1.size a ≤ S512x32.size a
  inb_S256x4096_S256x128_0_3072 : ∀ a, (![0, 3072] : Fin 2 → Nat) a + S256x128.size a ≤ S256x4096.size a
  inb_S512x4096_S512x128_0_3072 : ∀ a, (![0, 3072] : Fin 2 → Nat) a + S512x128.size a ≤ S512x4096.size a
  inb_S512x32_S512x1_0_24 : ∀ a, (![0, 24] : Fin 2 → Nat) a + S512x1.size a ≤ S512x32.size a
  inb_S256x4096_S256x128_0_3200 : ∀ a, (![0, 3200] : Fin 2 → Nat) a + S256x128.size a ≤ S256x4096.size a
  inb_S512x4096_S512x128_0_3200 : ∀ a, (![0, 3200] : Fin 2 → Nat) a + S512x128.size a ≤ S512x4096.size a
  inb_S512x32_S512x1_0_25 : ∀ a, (![0, 25] : Fin 2 → Nat) a + S512x1.size a ≤ S512x32.size a
  inb_S256x4096_S256x128_0_3328 : ∀ a, (![0, 3328] : Fin 2 → Nat) a + S256x128.size a ≤ S256x4096.size a
  inb_S512x4096_S512x128_0_3328 : ∀ a, (![0, 3328] : Fin 2 → Nat) a + S512x128.size a ≤ S512x4096.size a
  inb_S512x32_S512x1_0_26 : ∀ a, (![0, 26] : Fin 2 → Nat) a + S512x1.size a ≤ S512x32.size a
  inb_S256x4096_S256x128_0_3456 : ∀ a, (![0, 3456] : Fin 2 → Nat) a + S256x128.size a ≤ S256x4096.size a
  inb_S512x4096_S512x128_0_3456 : ∀ a, (![0, 3456] : Fin 2 → Nat) a + S512x128.size a ≤ S512x4096.size a
  inb_S512x32_S512x1_0_27 : ∀ a, (![0, 27] : Fin 2 → Nat) a + S512x1.size a ≤ S512x32.size a
  inb_S256x4096_S256x128_0_3584 : ∀ a, (![0, 3584] : Fin 2 → Nat) a + S256x128.size a ≤ S256x4096.size a
  inb_S512x4096_S512x128_0_3584 : ∀ a, (![0, 3584] : Fin 2 → Nat) a + S512x128.size a ≤ S512x4096.size a
  inb_S512x32_S512x1_0_28 : ∀ a, (![0, 28] : Fin 2 → Nat) a + S512x1.size a ≤ S512x32.size a
  inb_S256x4096_S256x128_0_3712 : ∀ a, (![0, 3712] : Fin 2 → Nat) a + S256x128.size a ≤ S256x4096.size a
  inb_S512x4096_S512x128_0_3712 : ∀ a, (![0, 3712] : Fin 2 → Nat) a + S512x128.size a ≤ S512x4096.size a
  inb_S512x32_S512x1_0_29 : ∀ a, (![0, 29] : Fin 2 → Nat) a + S512x1.size a ≤ S512x32.size a
  inb_S256x4096_S256x128_0_3840 : ∀ a, (![0, 3840] : Fin 2 → Nat) a + S256x128.size a ≤ S256x4096.size a
  inb_S512x4096_S512x128_0_3840 : ∀ a, (![0, 3840] : Fin 2 → Nat) a + S512x128.size a ≤ S512x4096.size a
  inb_S512x32_S512x1_0_30 : ∀ a, (![0, 30] : Fin 2 → Nat) a + S512x1.size a ≤ S512x32.size a
  inb_S256x4096_S256x128_0_3968 : ∀ a, (![0, 3968] : Fin 2 → Nat) a + S256x128.size a ≤ S256x4096.size a
  inb_S512x4096_S512x128_0_3968 : ∀ a, (![0, 3968] : Fin 2 → Nat) a + S512x128.size a ≤ S512x4096.size a
  inb_S512x32_S512x1_0_31 : ∀ a, (![0, 31] : Fin 2 → Nat) a + S512x1.size a ≤ S512x32.size a
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  shapeCasts_S4096x4096_S2x2048x4096 : S4096x4096.ShapeCasts S2x2048x4096
  dot_S256x128_S512x128_S256x512_1_1_0_0_n_n_wf : DotDims.WF S256x128 S512x128 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .i32 = 32 ∨ (Rect.block (s := S4096x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S4096x32.size a
  hwx0_2 : ∀ i : grid0.Coords, EltTy.bits .f32 = 32 ∨ (Rect.block (s := S4096x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S4096x32.size a
  hwx0_3 : ∀ i : grid0.Coords, EltTy.bits .f32 = 32 ∨ (Rect.block (s := S4096x32) S512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S4096.size a
  hwx0_4 : ∀ i : grid0.Coords, EltTy.bits .f32 = 32 ∨ (Rect.block (s := S4096) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S4096x4096.size a
  hwx0_5 : ∀ i : grid0.Coords, EltTy.bits .f32 = 32 ∨ (Rect.block (s := S4096x4096) S256x512.size (cc0_transform_5 i) (hinb0_5 i)).WholeWords (EltTy.packing .f32)

variable [Facts₀]

def dot_S256x128_S512x128_S256x512_1_1_0_0_n_n : DotDims S256x128 S512x128 S256x512 where
  lhsContracting := [1]
  rhsContracting := [1]
  lhsNonContracting := [0]
  rhsNonContracting := [0]
  lhsBatch := []
  rhsBatch := []
  wf := dot_S256x128_S512x128_S256x512_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096x32 : Shape := ⟨2, ![4096, 32]⟩
abbrev S4096 : Shape := ⟨1, ![4096]⟩
abbrev S4096x32x128 : Shape := ⟨3, ![4096, 32, 128]⟩
abbrev S4096x32x1 : Shape := ⟨3, ![4096, 32, 1]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4096x4096, .f32⟩
  | .hbm, ⟨6, _⟩ => ⟨S4096x32x128, .f32⟩
  | .hbm, ⟨7, _⟩ => ⟨S4096x32x1, .f32⟩
  | .hbm, ⟨8, _⟩ => ⟨S4096x32x128, .f32⟩
  | .hbm, ⟨9, _⟩ => ⟨S4096x32x128, .f32⟩
  | .hbm, ⟨10, _⟩ => ⟨S4096x32x1, .f32⟩
  | .hbm, ⟨11, _⟩ => ⟨S4096x32x128, .f32⟩
  | .hbm, ⟨12, _⟩ => ⟨S4096x32x128, .f32⟩
  | .hbm, ⟨13, _⟩ => ⟨S4096x4096, .f32⟩
  | .hbm, ⟨14, _⟩ => ⟨S2x2048x4096, .f32⟩
  | .hbm, ⟨15, _⟩ => ⟨S1x1x4096, .f32⟩
  | .hbm, ⟨16, _⟩ => ⟨S2x2048x4096, .f32⟩
  | .hbm, ⟨17, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.AccumulateStep.lean ====
/-
  One tile of the quantized linear layer, read entry by entry on the extended reals.

  The kernel works on a tile of 256 rows of the activations against 512 rows of the quantized weight.  It keeps an
  accumulator `acc` of shape [256, 512], fills it with zeros, and then, for each of the 32 quantization groups, adds to it
  the product of a [256, 128] slice `xs` of the activations with the transpose of the dequantized [512, 128] slice of the
  weight: the integer weight `ws` made a float, minus the group's zero point `zp`, times the group's scale `sc` (both
  one column, [512, 1], spread over the 128 columns of the group).  Read at the entry (p, q) and with exact arithmetic —
  the change of format before the product is then the identity, and the product accumulates into zero — one such step
  adds to `acc (p, q)` the 128 products  xs (p, k) · ((ws (q, k) − zp q) · sc q).  After the last group one row of bias
  is added to every row of the tile.
-/
import proofs.«168159_j12214886990526_1_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal

/-- The left operand's row coordinate, at any contraction position, is the output entry's row: the first axis of
    the left operand is not contracted. -/
theorem lhs_row (j : S256x512.Idx) (c : dot_S256x128_S512x128_S256x512_1_1_0_0_n_n.contr.Idx) :
    (dot_S256x128_S512x128_S256x512_1_1_0_0_n_n.lhsIdx j c 0).val = (j 0).val := by
  unfold DotDims.lhsIdx
  rw [dif_neg (show ¬(0 : Fin S256x128.rank) ∈ dot_S256x128_S512x128_S256x512_1_1_0_0_n_n.lhsBatch by decide),
    dif_pos (show (0 : Fin S256x128.rank) ∈ dot_S256x128_S512x128_S256x512_1_1_0_0_n_n.lhsNonContracting by decide)]
  rfl

/-- The right operand's row coordinate is the output entry's COLUMN: the right operand enters transposed. -/
theorem rhs_row (j : S256x512.Idx) (c : dot_S256x128_S512x128_S256x512_1_1_0_0_n_n.contr.Idx) :
    (dot_S256x128_S512x128_S256x512_1_1_0_0_n_n.rhsIdx j c 0).val = (j 1).val := by
  unfold DotDims.rhsIdx
  rw [dif_neg (show ¬(0 : Fin S512x128.rank) ∈ dot_S256x128_S512x128_S256x512_1_1_0_0_n_n.rhsBatch by decide),
    dif_pos (show (0 : Fin S512x128.rank) ∈ dot_S256x128_S512x128_S256x512_1_1_0_0_n_n.rhsNonContracting by decide)]
  rfl

/-- The left operand of the tile's product at output entry (p, q) and contraction position k is its entry (p, k):
    the product contracts the second axis of both operands. -/
theorem lhsIdx_eq (p : Fin 256) (q : Fin 512) (k : Fin 128) :
    dot_S256x128_S512x128_S256x512_1_1_0_0_n_n.lhsIdx (ix2 p q)
      ((contrEquiv1 dot_S256x128_S512x128_S256x512_1_1_0_0_n_n 128 rfl rfl).symm k) = ix2 p k :=
  funext fun a => Fin.ext (by
    match a with
    | ⟨0, _⟩ => exact lhs_row _ _
    | ⟨1, _⟩ =>
      exact (dot_S256x128_S512x128_S256x512_1_1_0_0_n_n.lhsIdx_val_of_single rfl _ _).trans
        (contrEquiv1_symm_val dot_S256x128_S512x128_S256x512_1_1_0_0_n_n 128 rfl rfl k))

/-- The right operand is read TRANSPOSED: at output entry (p, q) and contraction position k it is its entry (q, k). -/
theorem rhsIdx_eq (p : Fin 256) (q : Fin 512) (k : Fin 128) :
    dot_S256x128_S512x128_S256x512_1_1_0_0_n_n.rhsIdx (ix2 p q)
      ((contrEquiv1 dot_S256x128_S512x128_S256x512_1_1_0_0_n_n 128 rfl rfl).symm k) = ix2 q k :=
  funext fun a => Fin.ext (by
    match a with
    | ⟨0, _⟩ => exact rhs_row _ _
    | ⟨1, _⟩ =>
      exact (dot_S256x128_S512x128_S256x512_1_1_0_0_n_n.rhsIdx_val_of_single rfl _ _).trans
        (contrEquiv1_symm_val dot_S256x128_S512x128_S256x512_1_1_0_0_n_n 128 rfl rfl k))

/-- The tile's product into a zero accumulator, at (p, q): the sum over the 128 positions of the group of the left
    operand's row p times the right operand's row q. -/
theorem product_apply (L : FVec Ideal S256x128 .bf16) (R : FVec Ideal S512x128 .bf16) (p : Fin 256) (q : Fin 512) :
    matmul dot_S256x128_S512x128_S256x512_1_1_0_0_n_n none L R (constant S256x512 .f32 0x00000000#32) (ix2 p q)
      = ∑ k : Fin 128, L (ix2 p k) * R (ix2 q k) := by
  simp only [matmul]
  rw [Ideal.matmul_constant_zero_apply,
    ← Equiv.sum_comp (contrEquiv1 dot_S256x128_S512x128_S256x512_1_1_0_0_n_n 128 rfl rfl).symm]
  refine Finset.sum_congr rfl fun k _ => ?_
  rw [lhsIdx_eq, rhsIdx_eq]

/-- A [512, 1] column spread over 128 columns reads, at (q, k), the column's entry q. -/
theorem column_apply (v : FVec Ideal S512x1 .f32) (h : S512x1.Broadcasts S512x128) (q : Fin 512) (k : Fin 128) :
    broadcastTo S512x128 v h (ix2 q k) = v (ix2 q (0 : Fin 1)) := by
  refine broadcastTo_apply v h (ix2 q k) (ix2 q (0 : Fin 1)) fun a => ?_
  match a with
  | ⟨0, _⟩ => rfl
  | ⟨1, _⟩ => rfl

/-- ONE ACCUMULATE STEP at the entry (p, q): the accumulator there, plus the group's 128 products. -/
theorem step_apply (acc : FVec Ideal S256x512 .f32) (xs : FVec Ideal S256x128 .f32) (ws : IVec S512x128 32)
    (sc zp : FVec Ideal S512x1 .f32)
    (h1 : S256x128.ShapeCasts S256x128) (h2 : FTy.bits .bf16 < FTy.bits .f32) (h3 : S512x1.Broadcasts S512x128)
    (h4 : S256x512.ShapeCasts S256x512) (p : Fin 256) (q : Fin 512) :
    (shapeCast S256x512
        (addf (F := Ideal) acc
          (matmul (F := Ideal) dot_S256x128_S512x128_S256x512_1_1_0_0_n_n none
            (truncf (F := Ideal) .bf16 (shapeCast S256x128 xs h1) h2)
            (truncf (F := Ideal) .bf16
              (mulf (F := Ideal) (subf (F := Ideal) (sitofp (F := Ideal) .f32 ws) (broadcastTo S512x128 zp h3))
                (broadcastTo S512x128 sc h3)) h2)
            (constant (F := Ideal) S256x512 .f32 0x00000000#32))) h4 : FVec Ideal S256x512 .f32) (ix2 p q)
      = acc (ix2 p q)
        + ∑ k : Fin 128, xs (ix2 p k)
            * ((FloatOps.sitofp (F := Ideal) .f32 (ws (ix2 q k)) - zp (ix2 q (0 : Fin 1))) * sc (ix2 q (0 : Fin 1))) := by
  rw [shapeCast_self, addf_apply, product_apply]
  refine congrArg (acc (ix2 p q) + ·) (Finset.sum_congr rfl fun k _ => ?_)
  rw [truncf_apply, truncf_apply, shapeCast_self, mulf_apply, subf_apply, sitofp_apply, column_apply, column_apply]

/-- The zero fill at any entry is the extended real 0. -/
theorem zero_fill_apply (h4 : S256x512.ShapeCasts S256x512) (j : S256x512.Idx) :
    (shapeCast S256x512 (broadcast S256x512 (Scalar.ofBits (F := Ideal) .f32 0x00000000#32)) h4
      : FVec Ideal S256x512 .f32) j = 0 := by
  rw [shapeCast_self, broadcast_apply]
  exact Ideal.ofBits_zero_f32

/-- The bias: one row of 512 numbers added to every row of the tile. -/
theorem bias_apply (acc : FVec Ideal S256x512 .f32) (b : FVec Ideal S512 .f32)
    (h5 : S512.ShapeCasts S1x512) (h6 : S1x512.Broadcasts S256x512) (p : Fin 256) (q : Fin 512) :
    (addf (F := Ideal) acc (broadcastTo S256x512 (shapeCast S1x512 b h5) h6) : FVec Ideal S256x512 .f32) (ix2 p q)
      = acc (ix2 p q) + b (ix1 q) := by
  rw [addf_apply, broadcastTo_1b_ab_apply, shapeCast_a_1a_apply]

end Cert.KernelIdeal.Tile

end
-- ==== Proof.LibBlockAcc.lean ====
import Mathlib.Algebra.BigOperators.Fin
import Mathlib.Algebra.BigOperators.Intervals

/-!
# A long sum taken in consecutive blocks

A contraction over `n * K` terms may be accumulated block by block: start from zero and, for `k = 0, 1, …`,
add the sum of the `n` consecutive terms `n * k, …, n * k + n - 1`. After `k` blocks the accumulator holds the sum of
the first `n * k` terms, and after all `K` of them the whole sum. Only commutativity and associativity of `+` are
used, so nothing here asks the terms to be finite: the lemmas hold on the extended reals as they stand.
-/

namespace BlockAcc

open Finset

/-- The sum of the first `n * k` terms of a sequence: what the accumulator holds after `k` blocks of length `n`. -/
def partialSum {M : Type*} [AddCommMonoid M] (n : ℕ) (f : ℕ → M) (k : ℕ) : M := ∑ d ∈ range (n * k), f d

/-- Before any block the accumulator is zero. -/
theorem partialSum_zero {M : Type*} [AddCommMonoid M] (n : ℕ) (f : ℕ → M) : partialSum n f 0 = 0 := by
  simp [partialSum]

/-- One more block: the accumulator gains the sum of the next `n` consecutive terms. -/
theorem partialSum_succ {M : Type*} [AddCommMonoid M] (n : ℕ) (f : ℕ → M) (k : ℕ) :
    partialSum n f (k + 1) = partialSum n f k + ∑ s : Fin n, f (n * k + s.val) := by
  unfold partialSum
  rw [Nat.mul_succ, Finset.sum_range_add, Fin.sum_univ_eq_sum_range (fun s => f (n * k + s)) n]

/-- After all `K` blocks the accumulator holds the whole sum over `Fin N`, when `N = n * K`. -/
theorem partialSum_all {M : Type*} [AddCommMonoid M] (n K N : ℕ) (h : N = n * K) (f : ℕ → M) :
    partialSum n f K = ∑ d : Fin N, f d.val := by
  subst h
  unfold partialSum
  rw [Fin.sum_univ_eq_sum_range f (n * K)]

end BlockAcc
-- ==== Proof.ScratchInvariant.lean ====
/-
  What the tile's accumulator holds after each quantization group.

  Fix the tile's blocks: 256 rows `x0` of the activations, 512 rows `x1` of the integer weight, and the 512 × 32 tables
  `x2` (scales) and `x3` (zero points).  For the output entry (p, q) the layer contracts 4096 products,
      term i = x0 (p, i) · ((x1 (q, i) − x3 (q, i / 128)) · x2 (q, i / 128)),      i < 4096,
  the column i belonging to the quantization group i / 128.  The kernel never forms that sum in one piece: it zeroes an
  accumulator and, group after group, reads it back, adds the group's 128 products and stores it again.  The invariant
  is that after g groups the accumulator holds, at every entry, the sum of the first 128 · g terms; one step of it is
  the accumulate step read at an entry, and the law that joins the blocks is the partial-sum law for consecutive
  blocks (only associativity and commutativity of +, so nothing is asked of the entries: they may be infinite).
  After the 32nd group the accumulator holds the whole contraction, to which the bias row is added.
-/
import proofs.«168159_j12214886990526_1_alg».proof.Proof.Gen.KernelIdeal.Frame
import proofs.«168159_j12214886990526_1_alg».proof.Proof.AccumulateStep
import proofs.«168159_j12214886990526_1_alg».proof.Proof.LibBlockAcc

set_option maxRecDepth 16384

noncomputable section

namespace Cert.KernelIdeal.Tile

open Idealize.ShloMosaic Idealize.ShloMosaic.ValueIdx Cert.KernelIdeal Cert.KernelIdeal.Gen

/-! ## Reading a staged block through a rectangle -/

section Staged
variable {sig : RefSig} {κ : Kind} {sp : Space} {Val : EltTy → Type} {e : EltTy} {n0 n1 : ℕ}

/-- A whole staging buffer that holds the block `X`, read through the rectangle of all rows and the `m` columns from
    `o`, gives at (a, j) the block's entry (a, o + j). -/
theorem staged_cols (m : ℕ) (M : Memref sig κ sp (⟨2, ![n0, n1]⟩ : Shape) e) (hM : M.IsWhole)
    (X : (⟨2, ![n0, n1]⟩ : Shape).Idx → Val e) (o : ℕ)
    (inb : ∀ a, (![0, o] : Fin 2 → ℕ) a + (![n0, m] : Fin 2 → ℕ) a ≤ (⟨2, ![n0, n1]⟩ : Shape).size a)
    (a : Fin n0) (j : Fin m) (k : Fin n1) (hk : k.val = o + j.val) :
    View.readAt Val M.view (Rect.unit (s := ⟨2, ![n0, n1]⟩) ![0, o] ![n0, m] inb).toLoadRect (hM.unread X) (ix2 a j)
      = X (ix2 a k) := by
  rw [View.readAt_eq_ld, hM.read_unread]
  show X ((Rect.unit (s := ⟨2, ![n0, n1]⟩) ![0, o] ![n0, m] inb).idx (ix2 a j)) = X (ix2 a k)
  refine congrArg X (funext fun ax => Fin.ext ?_)
  match ax with
  | ⟨0, _⟩ => show 0 + 1 * a.val = a.val; omega
  | ⟨1, _⟩ => show o + 1 * j.val = k.val; omega

end Staged

/-! ## The terms of the contraction and the invariant -/

section Invariant
variable (x0 : FVec Ideal S256x4096 .f32) (x1 : IVec S512x4096 32) (x2 x3 : FVec Ideal S512x32 .f32)

/-- The i-th product of the contraction for the output entry (p, q): the activation times the dequantized weight,
    whose zero point and scale are those of the group i / 128. -/
def term (p : Fin 256) (q : Fin 512) (i : Fin 4096) : Ideal .f32 :=
  x0 (ix2 p i)
    * ((FloatOps.sitofp (F := Ideal) .f32 (x1 (ix2 q i)) - x3 (ix2 q ⟨i.val / 128, by have := i.isLt; omega⟩))
        * x2 (ix2 q ⟨i.val / 128, by have := i.isLt; omega⟩))

/-- The same terms as a sequence on the naturals (zero past the last), the form the partial-sum law is stated for. -/
def termSeq (p : Fin 256) (q : Fin 512) (d : ℕ) : Ideal .f32 :=
  if h : d < 4096 then term x0 x1 x2 x3 p q ⟨d, h⟩ else 0

/-- The k-th term of group g, with the group's zero point and scale written at the group. -/
theorem term_of_group (p : Fin 256) (q : Fin 512) {g : ℕ} (hg : g < 32) (k : Fin 128) (h : 128 * g + k.val < 4096) :
    term x0 x1 x2 x3 p q ⟨128 * g + k.val, h⟩
      = x0 (ix2 p ⟨128 * g + k.val, h⟩)
          * ((FloatOps.sitofp (F := Ideal) .f32 (x1 (ix2 q ⟨128 * g + k.val, h⟩)) - x3 (ix2 q ⟨g, hg⟩))
              * x2 (ix2 q ⟨g, hg⟩)) := by
  have e : (⟨(128 * g + k.val) / 128, by omega⟩ : Fin 32) = ⟨g, hg⟩ :=
    Fin.ext (by have := k.isLt; show (128 * g + k.val) / 128 = g; omega)
  unfold term
  rw [e]

/-- THE INVARIANT: the accumulator holds, at every entry, the sum of the first 128 · g terms. -/
def HoldsAfter (g : ℕ) (acc : FVec Ideal S256x512 .f32) : Prop :=
  ∀ (p : Fin 256) (q : Fin 512), acc (ix2 p q) = BlockAcc.partialSum 128 (termSeq x0 x1 x2 x3 p q) g

/-- It holds of the zero fill, before any group. -/
theorem HoldsAfter.zero (h4 : S256x512.ShapeCasts S256x512) :
    HoldsAfter x0 x1 x2 x3 0
      (shapeCast S256x512 (broadcast S256x512 (Scalar.ofBits (F := Ideal) .f32 0x00000000#32)) h4) := by
  intro p q
  rw [zero_fill_apply, BlockAcc.partialSum_zero]

/-- ONE GROUP MORE: if it holds after g groups, and the step's four operands are the g-th column slices of the
    tile's blocks, it holds after g + 1. -/
theorem HoldsAfter.step {g : ℕ} (hg : g < 32) (acc : FVec Ideal S256x512 .f32)
    (xs : FVec Ideal S256x128 .f32) (ws : IVec S512x128 32) (sc zp : FVec Ideal S512x1 .f32)
    (h1 : S256x128.ShapeCasts S256x128) (h2 : FTy.bits .bf16 < FTy.bits .f32) (h3 : S512x1.Broadcasts S512x128)
    (h4 : S256x512.ShapeCasts S256x512)
    (hxs : ∀ (p : Fin 256) (k : Fin 128), xs (ix2 p k) = x0 (ix2 p ⟨128 * g + k.val, by have := k.isLt; omega⟩))
    (hws : ∀ (q : Fin 512) (k : Fin 128), ws (ix2 q k) = x1 (ix2 q ⟨128 * g + k.val, by have := k.isLt; omega⟩))
    (hsc : ∀ q : Fin 512, sc (ix2 q (0 : Fin 1)) = x2 (ix2 q ⟨g, hg⟩))
    (hzp : ∀ q : Fin 512, zp (ix2 q (0 : Fin 1)) = x3 (ix2 q ⟨g, hg⟩))
    (hacc : HoldsAfter x0 x1 x2 x3 g acc) :
    HoldsAfter x0 x1 x2 x3 (g + 1)
      (shapeCast S256x512
        (addf (F := Ideal) acc
          (matmul (F := Ideal) dot_S256x128_S512x128_S256x512_1_1_0_0_n_n none
            (truncf (F := Ideal) .bf16 (shapeCast S256x128 xs h1) h2)
            (truncf (F := Ideal) .bf16
              (mulf (F := Ideal) (subf (F := Ideal) (sitofp (F := Ideal) .f32 ws) (broadcastTo S512x128 zp h3))
                (broadcastTo S512x128 sc h3)) h2)
            (constant (F := Ideal) S256x512 .f32 0x00000000#32))) h4) := by
  intro p q
  rw [step_apply, hacc p q, BlockAcc.partialSum_succ]
  refine congrArg (BlockAcc.partialSum 128 (termSeq x0 x1 x2 x3 p q) g + ·) (Finset.sum_congr rfl fun k _ => ?_)
  have hk : 128 * g + k.val < 4096 := by have := k.isLt; omega
  unfold termSeq
  rw [dif_pos hk, term_of_group x0 x1 x2 x3 p q hg k hk, hxs, hws, hsc, hzp]

/-- Reading the accumulator back: a load through the whole buffer, after a store through the whole buffer, reads what
    that store wrote, whatever was stored before. -/
theorem HoldsAfter.readBack {sig : RefSig} {κ : Kind} {sp : Space} (v : View sig κ sp S256x512 .f32) {g : ℕ}
    (off : Fin S256x512.rank → ℕ) (inb : ∀ a, off a + S256x512.size a ≤ S256x512.size a)
    (w : S256x512.Idx → Elt Ideal .f32) (L : List (View.Piece (Elt Ideal) S256x512 .f32))
    (hw : HoldsAfter x0 x1 x2 x3 g w) :
    HoldsAfter x0 x1 x2 x3 g
      (v.readCov ((⟨Rect.unit off S256x512.size inb, w⟩ : View.Piece (Elt Ideal) S256x512 .f32) :: L)
        (Rect.unit off S256x512.size inb).toLoadRect) := by
  rw [View.readCov_cons_toLoadRect]; exact hw

end Invariant

/-! ## Through the 32 groups -/

section Run
variable (c : Dev nD) (arg2 : Memref sig .tc .vmem S256x4096 .f32) (harg2 : arg2.IsWhole)
  (arg3 : Memref sig .tc .vmem S512x4096 .i32) (harg3 : arg3.IsWhole)
  (arg4 : Memref sig .tc .vmem S512x32 .f32) (harg4 : arg4.IsWhole)
  (arg5 : Memref sig .tc .vmem S512x32 .f32) (harg5 : arg5.IsWhole)
  (arg8 : Memref sig .tc .vmem S256x512 .f32)
  (x0 : Vec Ideal S256x4096 .f32) (x1 : Vec Ideal S512x4096 .i32) (x2 x3 : Vec Ideal S512x32 .f32)

/-- One group, backwards: the accumulator read after the group is what the group's store wrote (`readBack`); that store
    wrote one accumulate step over the accumulator read before it and the group's four column slices, each a staged
    block read through a rectangle (`step`, `staged_cols`); what is left is the invariant one group earlier.  (The
    body's operations between two stores are named in pieces; opening the names gives the step's operations.) -/
local macro "one_group_back" : tactic => `(tactic|
  (refine HoldsAfter.readBack _ _ _ _ _ _ _ _ _ ?_
   dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56,
     kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25]
   refine HoldsAfter.step _ _ _ _ (by norm_num) _ _ _ _ _ _ _ _ _
     (fun p k => staged_cols 128 _ _ _ _ _ p k _ rfl) (fun q k => staged_cols 128 _ _ _ _ _ q k _ rfl)
     (fun q => staged_cols 1 _ _ _ _ _ q 0 _ rfl) (fun q => staged_cols 1 _ _ _ _ _ q 0 _ rfl) ?_))

/-- After the 32nd group the accumulator, as the body reads it back for the last time, holds the sum of all
    128 · 32 = 4096 terms at every entry. -/
theorem holds_after_all :
    HoldsAfter x0 x1 x2 x3 32
      (kernelRun0_A.sl.v580 (F := Ideal) c arg2 harg2 arg3 harg3 arg4 harg4 arg5 harg5 arg8 x0 x1 x2 x3) := by
  iterate 32 one_group_back
  refine HoldsAfter.readBack _ _ _ _ _ _ _ _ _ ?_
  dsimp only [k0_pay3]
  exact HoldsAfter.zero _ _ _ _ _

end Run

end Cert.KernelIdeal.Tile

end
-- ==== Proof.TileValue.lean ====
/-
  What one grid point of the kernel leaves in its output block.

  The body ends by reading the accumulator once more and adding the bias row; the result is stored through the whole
  output block.  With the invariant of the accumulator carried through all 32 groups, the block's entry (p, q) is the
  whole contraction over the 4096 columns — the sum of the terms of `Tile.term` — plus the bias at column q.
-/
import proofs.«168159_j12214886990526_1_alg».proof.Proof.ScratchInvariant

set_option maxRecDepth 16384

noncomputable section

namespace Cert.KernelIdeal.Tile

open Idealize.ShloMosaic Idealize.ShloMosaic.ValueIdx Cert.KernelIdeal Cert.KernelIdeal.Gen

/-- The offsets of a rectangle that starts at the origin of a matrix, and of a vector. -/
theorem origin2 : (![0, 0] : Fin 2 → ℕ) = fun _ => 0 := funext fun a => by fin_cases a <;> rfl
theorem origin1 : (![0] : Fin 1 → ℕ) = fun _ => 0 := funext fun a => by fin_cases a; rfl

/-- THE OUTPUT BLOCK of one grid point, at the entry (p, q): the contraction of row p of the activations' block with
    row q of the dequantized weight's block, plus the bias block's entry q. -/
theorem out_block_apply (c : Dev nD) (i : grid0.Coords)
    (arg2 : Memref sig .tc .vmem S256x4096 .f32) (harg2 : arg2.IsWhole)
    (arg3 : Memref sig .tc .vmem S512x4096 .i32) (harg3 : arg3.IsWhole)
    (arg4 : Memref sig .tc .vmem S512x32 .f32) (harg4 : arg4.IsWhole)
    (arg5 : Memref sig .tc .vmem S512x32 .f32) (harg5 : arg5.IsWhole)
    (arg6 : Memref sig .tc .vmem S512 .f32) (harg6 : arg6.IsWhole)
    (arg7 : Memref sig .tc .vmem S256x512 .f32) (harg7 : arg7.IsWhole)
    (arg8 : Memref sig .tc .vmem S256x512 .f32) (harg8 : arg8.IsWhole)
    (x0 : Vec Ideal S256x4096 .f32) (x1 : Vec Ideal S512x4096 .i32) (x2 x3 : Vec Ideal S512x32 .f32)
    (x4 : Vec Ideal S512 .f32) (p : Fin 256) (q : Fin 512) :
    out0_A_5 (F := Ideal) c i arg2 harg2 arg3 harg3 arg4 harg4 arg5 harg5 arg6 harg6 arg7 harg7 arg8 harg8
        x0 x1 x2 x3 x4 (ix2 p q)
      = (∑ d : Fin 4096, term x0 x1 x2 x3 p q d) + x4 (ix1 q) := by
  unfold out0_A_5
  rw [View.read_writes_eq_canon _ _ _
    (cover0_A_5 c i arg2 harg2 arg3 harg3 arg4 harg4 arg5 harg5 arg6 harg6 arg7 harg7 arg8 harg8 x0 x1 x2 x3 x4)]
  unfold kernelRun0_A
  dsimp only
  rw [View.canon_unit_zero origin2]
  dsimp only [k0_pay2]
  rw [bias_apply, holds_after_all c arg2 harg2 arg3 harg3 arg4 harg4 arg5 harg5 arg8 x0 x1 x2 x3 p q,
    BlockAcc.partialSum_all 128 32 4096 rfl]
  refine congrArg₂ (· + ·) (Finset.sum_congr rfl fun d _ => ?_) ?_
  · unfold termSeq
    rw [dif_pos d.isLt]
  · rw [View.readAt_eq_ld, harg6.read_unread, View.ld_unit_zero origin1]

end Cert.KernelIdeal.Tile

end
-- ==== Proof.KernelArray.lean ====
/-
  From the grid's blocks to the whole output matrix.

  The grid has 16 × 8 points; point (a, b) works on rows 256·a … of the flattened activations and rows 512·b … of the
  weight and of its scale and zero-point tables, and writes the block (a, b) of the 4096 × 4096 output.  Each block is
  the restriction of ONE function of the whole arrays: entry (r, o) of the output is the contraction of row r of the
  activations with row o of the dequantized weight, plus the bias at o.  The 128 blocks tile the output, so after the
  run the output array is that function.
-/
import proofs.«168159_j12214886990526_1_alg».proof.Proof.TileValue

set_option maxRecDepth 16384

noncomputable section

namespace Cert.KernelIdeal.Whole

open Idealize.ShloMosaic Idealize.ShloMosaic.ValueIdx Idealize.ShloMosaic.TcCoe Idealize.SL.Sem
open Cert.KernelIdeal Cert.KernelIdeal.Gen Cert.KernelIdeal.Tile

/-! ## The layer on the flattened activations -/

/-- Entry (r, o) of the quantized linear layer on a 4096 × 4096 activation matrix `A0`: the contraction over the 4096
    input columns of the activation with the dequantized weight — integer weight `A1` minus the zero point `A3` of the
    column's group, times the group's scale `A2` — plus the bias `A4`. -/
def layerEntry (A0 : S4096x4096.Idx → Ideal .f32) (A1 : S4096x4096.Idx → BitVec 32)
    (A2 A3 : S4096x32.Idx → Ideal .f32) (A4 : S4096.Idx → Ideal .f32) (r o : Fin 4096) : Ideal .f32 :=
  (∑ d : Fin 4096, A0 (ix2 r d)
      * ((FloatOps.sitofp (F := Ideal) .f32 (A1 (ix2 o d)) - A3 (ix2 o ⟨d.val / 128, by have := d.isLt; omega⟩))
          * A2 (ix2 o ⟨d.val / 128, by have := d.isLt; omega⟩)))
    + A4 (ix1 o)

/-- The whole output matrix. -/
def layer2d (A0 : S4096x4096.Idx → Ideal .f32) (A1 : S4096x4096.Idx → BitVec 32)
    (A2 A3 : S4096x32.Idx → Ideal .f32) (A4 : S4096.Idx → Ideal .f32) : S4096x4096.Idx → Ideal .f32 :=
  fun i => layerEntry A0 A1 A2 A3 A4 (i 0) (i 1)

/-- ONE BLOCK IS A RESTRICTION OF THE LAYER: if the five blocks a grid point works on are the blocks (a, ·), (b, ·),
    (b, ·), (b, ·) and (b) of the whole arrays, what the point leaves at (p, q) is the layer's entry
    (256·a + p, 512·b + q). -/
theorem block_is_layer (A0 : S4096x4096.Idx → Ideal .f32) (A1 : S4096x4096.Idx → BitVec 32)
    (A2 A3 : S4096x32.Idx → Ideal .f32) (A4 : S4096.Idx → Ideal .f32) (a b : ℕ) (ha : a ≤ 15) (hb : b ≤ 7)
    (x0 : FVec Ideal S256x4096 .f32) (x1 : IVec S512x4096 32) (x2 x3 : FVec Ideal S512x32 .f32)
    (x4 : FVec Ideal S512 .f32) (p : Fin 256) (q : Fin 512)
    (h0 : ∀ d : Fin 4096, x0 (ix2 p d) = A0 (ix2 ⟨a * 256 + p.val, by have := p.isLt; omega⟩ d))
    (h1 : ∀ d : Fin 4096, x1 (ix2 q d) = A1 (ix2 ⟨b * 512 + q.val, by have := q.isLt; omega⟩ d))
    (h2 : ∀ g : Fin 32, x2 (ix2 q g) = A2 (ix2 ⟨b * 512 + q.val, by have := q.isLt; omega⟩ g))
    (h3 : ∀ g : Fin 32, x3 (ix2 q g) = A3 (ix2 ⟨b * 512 + q.val, by have := q.isLt; omega⟩ g))
    (h4 : x4 (ix1 q) = A4 (ix1 ⟨b * 512 + q.val, by have := q.isLt; omega⟩)) :
    (∑ d : Fin 4096, term x0 x1 x2 x3 p q d) + x4 (ix1 q)
      = layerEntry A0 A1 A2 A3 A4 ⟨a * 256 + p.val, by have := p.isLt; omega⟩
          ⟨b * 512 + q.val, by have := q.isLt; omega⟩ := by
  unfold layerEntry
  rw [h4]
  refine congrArg (· + _) (Finset.sum_congr rfl fun d _ => ?_)
  unfold term
  rw [h0, h1, h2, h3]

/-! ## The blocks of the grid -/

section Run
variable (m : (ℓ : Loc nD τ sig) → Buf (Elt Ideal) ℓ) (ρ : Dev nD → PrngReg)

/-- Where each window's block sits at grid point `t`, relative to the output's block (a, b) = the output window's block
    index: the activations' block is (a, 0), the weight's and the two tables' (b, 0), the bias' (b); decided over the
    128 points of the grid. -/
theorem block_positions : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 1) = win0_5.index t (1 : Fin 2)
    ∧ win0_5.index t (0 : Fin 2) ≤ 15 ∧ win0_5.index t (1 : Fin 2) ≤ 7 :=
  (by decide +kernel : ∀ t : Fin grid0.N, _)

/-- Every block (a, b) of the output is some grid point's. -/
theorem block_of_some_point : ∀ (a : Fin 16) (b : Fin 8), ∃ t : Fin cfg0.N, win0_5.index t = ![a.val, b.val] :=
  (by decide +kernel : ∀ (a : Fin 16) (b : Fin 8), ∃ t : Fin grid0.N, win0_5.index t = ![a.val, b.val])

/-- The arrays as the region finds them, by name. -/
abbrev found (c : Dev nD) : S4096x4096.Idx → Ideal .f32 :=
  layer2d (V m c main_v0) (V m c main_arg1) (V m c main_arg2) (V m c main_arg3) (V m c main_arg4)

/-- WHAT POINT `t` WRITES BACK is block `t` of the layer of the arrays the region finds. -/
theorem flushed_eq (c : Dev nD) (t : Fin cfg0.N) :
    (dats m 0 c).flushed 5 t = ((cfg0.win 5).blk t).view.read (Elt Ideal) (found m c) := by
  show (cfg0.win 5).cut (grid0.coords t) ((dats m 0 c).after 5 t) = _
  rw [after0_5]
  unfold outsAt0
  obtain ⟨e00, e01, e10, e11, e20, e21, e30, e31, e40, ha, hb⟩ := block_positions t
  funext j
  obtain ⟨p, q, rfl⟩ : ∃ (p : Fin 256) (q : Fin 512), j = ix2 p q := ⟨j 0, j 1, eq_ix2 j⟩
  refine (out_block_apply c (grid0.coords t) (ms0_0 t) (hs0_0 t) (ms0_1 t) (hs0_1 t) (ms0_2 t) (hs0_2 t) (ms0_3 t)
    (hs0_3 t) (ms0_4 t) (hs0_4 t) (ms0_5 t) (hs0_5 t) scM0_0 (Memref.isWhole_whole _) (iblk m c 0 t) (iblk m c 1 t)
    (iblk m c 2 t) (iblk m c 3 t) (iblk m c 4 t) p q).trans ?_
  refine (block_is_layer (V m c main_v0) (V m c main_arg1) (V m c main_arg2) (V m c main_arg3) (V m c main_arg4)
    (win0_5.index t (0 : Fin 2)) (win0_5.index t (1 : Fin 2)) ha hb
    (iblk m c 0 t) (iblk m c 1 t) (iblk m c 2 t) (iblk m c 3 t) (iblk m c 4 t) p q ?_ ?_ ?_ ?_ ?_).trans ?_
  · intro d
    show V m c main_v0 (((cfg0.win 0).blk t).view.emb (ix2 p d)) = V m c main_v0 _
    refine congrArg (V m c main_v0) (funext fun ax => Fin.ext ?_)
    match ax with
    | ⟨0, _⟩ => show win0_0.index t (0 : Fin 2) * 256 + 1 * p.val = win0_5.index t (0 : Fin 2) * 256 + p.val; omega
    | ⟨1, _⟩ => show win0_0.index t (1 : Fin 2) * 4096 + 1 * d.val = d.val; omega
  · intro d
    show V m c main_arg1 (((cfg0.win 1).blk t).view.emb (ix2 q d)) = V m c main_arg1 _
    refine congrArg (V m c main_arg1) (funext fun ax => Fin.ext ?_)
    match ax with
    | ⟨0, _⟩ => show win0_1.index t (0 : Fin 2) * 512 + 1 * q.val = win0_5.index t (1 : Fin 2) * 512 + q.val; omega
    | ⟨1, _⟩ => show win0_1.index t (1 : Fin 2) * 4096 + 1 * d.val = d.val; omega
  · intro g
    show V m c main_arg2 (((cfg0.win 2).blk t).view.emb (ix2 q g)) = V m c main_arg2 _
    refine congrArg (V m c main_arg2) (funext fun ax => Fin.ext ?_)
    match ax with
    | ⟨0, _⟩ => show win0_2.index t (0 : Fin 2) * 512 + 1 * q.val = win0_5.index t (1 : Fin 2) * 512 + q.val; omega
    | ⟨1, _⟩ => show win0_2.index t (1 : Fin 2) * 32 + 1 * g.val = g.val; omega
  · intro g
    show V m c main_arg3 (((cfg0.win 3).blk t).view.emb (ix2 q g)) = V m c main_arg3 _
    refine congrArg (V m c main_arg3) (funext fun ax => Fin.ext ?_)
    match ax with
    | ⟨0, _⟩ => show win0_3.index t (0 : Fin 2) * 512 + 1 * q.val = win0_5.index t (1 : Fin 2) * 512 + q.val; omega
    | ⟨1, _⟩ => show win0_3.index t (1 : Fin 2) * 32 + 1 * g.val = g.val; omega
  · show V m c main_arg4 (((cfg0.win 4).blk t).view.emb (ix1 q)) = V m c main_arg4 _
    refine congrArg (V m c main_arg4) (funext fun ax => Fin.ext ?_)
    match ax with
    | ⟨0, _⟩ => show win0_4.index t (0 : Fin 1) * 512 + 1 * q.val = win0_5.index t (1 : Fin 2) * 512 + q.val; omega
  · rw [View.read_apply]
    show layerEntry _ _ _ _ _ _ _ = layerEntry _ _ _ _ _ _ _
    refine congrArg₂ (layerEntry (V m c main_v0) (V m c main_arg1) (V m c main_arg2) (V m c main_arg3) (V m c main_arg4))
      (Fin.ext ?_) (Fin.ext ?_)
    · show win0_5.index t (0 : Fin 2) * 256 + p.val = win0_5.index t (0 : Fin 2) * 256 + 1 * p.val; omega
    · show win0_5.index t (1 : Fin 2) * 512 + q.val = win0_5.index t (1 : Fin 2) * 512 + 1 * q.val; omega

/-- An index of the output is in point `t`'s block iff each coordinate is in the block's range on its axis. -/
theorem mem_block (t : Fin cfg0.N) (i : S4096x4096.Idx) :
    i ∈ ((cfg0.win 5).blk t).view.set ↔ ∀ a : Fin 2, win0_5.index t a * S256x512.size a ≤ (i a).val
      ∧ (i a).val < win0_5.index t a * S256x512.size a + S256x512.size a := by
  show i ∈ ((View.whole main_v1).slice (win0_5.rect t)).set ↔ _
  rw [View.set_slice_whole, Rect.mem_set_unit]
  exact Iff.rfl

/-- THE BLOCKS TILE THE OUTPUT: the entry (r, o) is in the block (r / 256, o / 512). -/
theorem covered (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ := block_of_some_point ⟨(i 0).val / 256, by omega⟩ ⟨(i 1).val / 512, by omega⟩
  have q0 : win0_5.index t (0 : Fin 2) = (i 0).val / 256 := congrFun ht 0
  have q1 : win0_5.index t (1 : Fin 2) = (i 1).val / 512 := congrFun ht 1
  refine ⟨t, flush0_5 t, ?_⟩
  rw [mem_block]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 512 ≤ (i 1).val ∧ (i 1).val < win0_5.index t (1 : Fin 2) * 512 + 512
    omega

/-- THE OUTPUT ARRAY after the run: the layer of the arrays the region finds. -/
theorem output_array (c : Dev nD) : (dats m 0 c).arrAt 5 cfg0.N = found m c :=
  (dats m 0 c).arrAt_eq_of_cover 5 (found m c) (fun t _ => flushed_eq m c t) (covered)

end Run

end Cert.KernelIdeal.Whole

end
-- ==== Proof.LayerSpec.lean ====
/-
  The quantized linear layer, entry by entry, on the extended reals.

  For activations x[b, s, ·], an integer weight wq[o, ·] quantized in groups of 128 consecutive input columns, the
  groups' scales sc[o, ·] and zero points zp[o, ·], and a bias,
      out[b, s, o] = Σ_{i < 4096} x[b, s, i] · ((wq[o, i] − zp[o, i / 128]) · sc[o, i / 128]) + bias[o].
  Both programs compute this function of their arguments; they differ only in how the sum is grouped.
-/
import Idealize.ShloMosaic.PureOps.Ideal
import Idealize.ShloMosaic.Lib.ValueIdx

noncomputable section

namespace Cert.Layer

open Idealize.ShloMosaic Idealize.ShloMosaic.ValueIdx

/-- The layer's output at the entry (b, s, o). -/
def entry (x : (⟨3, ![2, 2048, 4096]⟩ : Shape).Idx → Ideal .f32) (wq : (⟨2, ![4096, 4096]⟩ : Shape).Idx → BitVec 32)
    (sc zp : (⟨2, ![4096, 32]⟩ : Shape).Idx → Ideal .f32) (bias : (⟨1, ![4096]⟩ : Shape).Idx → Ideal .f32)
    (b : Fin 2) (s : Fin 2048) (o : Fin 4096) : Ideal .f32 :=
  (∑ d : Fin 4096, x (ix3 b s d)
      * ((FloatOps.sitofp (F := Ideal) .f32 (wq (ix2 o d)) - zp (ix2 o ⟨d.val / 128, by have := d.isLt; omega⟩))
          * sc (ix2 o ⟨d.val / 128, by have := d.isLt; omega⟩)))
    + bias (ix1 o)

/-- The whole output array. -/
def out (x : (⟨3, ![2, 2048, 4096]⟩ : Shape).Idx → Ideal .f32) (wq : (⟨2, ![4096, 4096]⟩ : Shape).Idx → BitVec 32)
    (sc zp : (⟨2, ![4096, 32]⟩ : Shape).Idx → Ideal .f32) (bias : (⟨1, ![4096]⟩ : Shape).Idx → Ideal .f32) :
    (⟨3, ![2, 2048, 4096]⟩ : Shape).Idx → Ideal .f32 :=
  fun i => entry x wq sc zp bias (i 0) (i 1) (i 2)

end Cert.Layer

end
-- ==== Proof.KernelRun.lean ====
/-
  The kernel's run, read: its result is the layer of its arguments.

  Around the grid the program only re-lays arrays: the activations [2, 2048, 4096] are flattened to [4096, 4096] before
  it, row 2048·b + s being (b, s), and the output matrix is laid back as [2, 2048, 4096] after it.  Entry (b, s, o)
  of the result is therefore entry (2048·b + s, o) of the output matrix, whose activation row is the row (b, s).
-/
import proofs.«168159_j12214886990526_1_alg».proof.Proof.KernelArray
import proofs.«168159_j12214886990526_1_alg».proof.Proof.LayerSpec
import Idealize.ShloMosaic.Lib.StableHlo.Run

set_option maxRecDepth 16384

noncomputable section

namespace Cert.KernelIdeal.Whole

open Idealize.ShloMosaic Idealize.ShloMosaic.ValueIdx Idealize.ShloMosaic.TcCoe Idealize.SL.Sem
open Cert.KernelIdeal Cert.KernelIdeal.Gen Cert.KernelIdeal.Tile

section Run
variable (m : (ℓ : Loc nD τ sig) → Buf (Elt Ideal) ℓ) (ρ : Dev nD → PrngReg)

/-- The activations as the grid finds them: the argument, flattened. -/
theorem found_activations (c : Dev nD) :
    (V m c main_v0 : S4096x4096.Idx → Ideal .f32)
      = shapeCast S4096x4096 (m ((c : Thread nD τ).loc main_arg0)) shapeCasts_S2x2048x4096_S4096x4096 := by
  show StableHlo.after hostOps0 (fun b => m (c, b)) (Proc.devRef .tc main_v0) = _
  after_results
  rfl

/-- The flattened activations at (2048·b + s, d) are the activations at (b, s, d). -/
theorem flat_row (x : S2x2048x4096.Idx → Ideal .f32) (h : S2x2048x4096.ShapeCasts S4096x4096)
    (b : Fin 2) (s : Fin 2048) (d : Fin 4096) :
    shapeCast S4096x4096 x h (ix2 (⟨b.val * 2048 + s.val, by have := b.isLt; have := s.isLt; omega⟩ : Fin 4096) d)
      = x (ix3 b s d) :=
  shapeCast_apply x h _ _ (by
    rw [Shape.rowMajor_val_three, Shape.rowMajor_val_two]
    show (b.val * 2048 + s.val) * 4096 + d.val = (b.val * 2048 + s.val) * 4096 + d.val
    rfl)

/-- The result after the lines that follow the grid. -/
theorem result_eq (c : Dev nD) :
    Pipeline.afterTail₀ cfgs (dats m) 0 (V0 m) [hostOps1] c main_v2
      = Cert.Layer.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold Pipeline.afterTail₀
  show StableHlo.after hostOps1 _ (Proc.devRef .tc main_v2) = _
  after_results
  funext i
  obtain ⟨b, s, o, rfl⟩ : ∃ (b : Fin 2) (s : Fin 2048) (o : Fin 4096), i = ix3 b s o := ⟨i 0, i 1, i 2, eq_ix3 i⟩
  have harr : Pipeline.withArrays (cfgs 0).spec c (V0 m c) (fun w => (dats m 0 c).arrAt w (cfgs 0).N)
      (Proc.devRef .tc main_v1) = found m c :=
    (Pipeline.withArrays_arr spec0 launch0.win.arr_inj c _ _ 5).trans (output_array m c)
  show shapeCast S2x2048x4096 (Pipeline.withArrays (cfgs 0).spec c (V0 m c)
      (fun w => (dats m 0 c).arrAt w (cfgs 0).N) (Proc.devRef .tc main_v1))
    shapeCasts_S4096x4096_S2x2048x4096 (ix3 b s o) = _
  rw [harr]
  refine (shapeCast_apply (found m c) shapeCasts_S4096x4096_S2x2048x4096 (ix3 b s o)
    (ix2 (⟨b.val * 2048 + s.val, by have := b.isLt; have := s.isLt; omega⟩ : Fin 4096) o) (by
      rw [Shape.rowMajor_val_two, Shape.rowMajor_val_three]
      rfl)).trans ?_
  show layerEntry (V m c main_v0) (V m c main_arg1) (V m c main_arg2) (V m c main_arg3) (V m c main_arg4)
      (⟨b.val * 2048 + s.val, by have := b.isLt; have := s.isLt; omega⟩ : Fin 4096) o
    = Cert.Layer.entry _ _ _ _ _ b s o
  unfold layerEntry Cert.Layer.entry
  rw [found_activations, V_main_arg1, V_main_arg2, V_main_arg3, V_main_arg4]
  refine congrArg (· + _) (Finset.sum_congr rfl fun d _ => ?_)
  rw [flat_row]

/-- THE KERNEL'S RUN: every weakly fair execution terminates with the result at the layer of the arguments and the
    arguments as they were. -/
theorem run : θ_run defs (onTc (τ := τ) (main (F := Ideal))) ⟨m, fun _ => 0, ρ⟩ (fun r => ∀ c : Dev nD,
      r.2.mem ((c.tc : Thread nD τ).loc main_v2)
        = Cert.Layer.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Run

end Cert.KernelIdeal.Whole

end
-- ==== Proof.RefRead.lean ====
/-
  The reference computes the layer.

  The reference dequantizes the whole weight first — the integer matrix made a float and re-laid as [4096, 32, 128],
  the zero points and scales spread along the last axis, subtracted and multiplied, then laid back as [4096, 4096] —
  and contracts it with the activations in one product, adding the bias spread over the batch.  Read at the entry
  (b, s, o), the weight's entry (o, i) passes through the two re-layings as (o, i / 128, i % 128) and back, so its zero
  point and scale are those of the group i / 128: the result is the layer's entry.
-/
import proofs.«168159_j12214886990526_1_alg».proof.Proof.Gen.ReferenceIdeal.Read
import proofs.«168159_j12214886990526_1_alg».proof.Proof.LayerSpec
import Idealize.ShloMosaic.Lib.ValueIdx
import Idealize.ShloMosaic.Lib.Pipeline.Value
import Idealize.ShloMosaic.PureOps.Ideal.Laws

noncomputable section

namespace Cert.RefRead

open Idealize.ShloMosaic Idealize.ShloMosaic.ValueIdx Cert.ReferenceIdeal Cert.ReferenceIdeal.Read

/-- The weight's entry (o, i), followed through the re-laying to [4096, 32, 128] and back, is itself. -/
theorem weight_index (i : S2x2048x4096.Idx) (k : Fin 4096) :
    idx_main_v1 (idx_main_v8 (ridx_main_v9 i k)) = ix2 (⟨(i 2).val, (i 2).isLt⟩ : Fin 4096) k := by
  have h2 : (i 2).val < 4096 := (i 2).isLt
  have hk : k.val < 4096 := k.isLt
  refine funext fun a => Fin.ext ?_
  match a with
  | ⟨0, _⟩ =>
    show ((((i 2).val * 4096 + k.val) / 4096 * 32 + ((i 2).val * 4096 + k.val) / 128 % 32) * 128
      + ((i 2).val * 4096 + k.val) % 128) / 4096 = (i 2).val
    omega
  | ⟨1, _⟩ =>
    show ((((i 2).val * 4096 + k.val) / 4096 * 32 + ((i 2).val * 4096 + k.val) / 128 % 32) * 128
      + ((i 2).val * 4096 + k.val) % 128) % 4096 = k.val
    omega

/-- Its zero point and scale are read at (o, i / 128): the spread along the last axis forgets the position in the
    group. -/
theorem group_index_zp (i : S2x2048x4096.Idx) (k : Fin 4096) :
    idx_main_v2 (idx_main_v3 (idx_main_v8 (ridx_main_v9 i k)))
      = ix2 (⟨(i 2).val, (i 2).isLt⟩ : Fin 4096) (⟨k.val / 128, by have := k.isLt; omega⟩ : Fin 32) := by
  have h2 : (i 2).val < 4096 := (i 2).isLt
  have hk : k.val < 4096 := k.isLt
  refine funext fun a => Fin.ext ?_
  match a with
  | ⟨0, _⟩ => show ((i 2).val * 4096 + k.val) / 4096 = (i 2).val; omega
  | ⟨1, _⟩ => show ((i 2).val * 4096 + k.val) / 128 % 32 = k.val / 128; omega

theorem group_index_sc (i : S2x2048x4096.Idx) (k : Fin 4096) :
    idx_main_v5 (idx_main_v6 (idx_main_v8 (ridx_main_v9 i k)))
      = ix2 (⟨(i 2).val, (i 2).isLt⟩ : Fin 4096) (⟨k.val / 128, by have := k.isLt; omega⟩ : Fin 32) := by
  have h2 : (i 2).val < 4096 := (i 2).isLt
  have hk : k.val < 4096 := k.isLt
  refine funext fun a => Fin.ext ?_
  match a with
  | ⟨0, _⟩ => show ((i 2).val * 4096 + k.val) / 4096 = (i 2).val; omega
  | ⟨1, _⟩ => show ((i 2).val * 4096 + k.val) / 128 % 32 = k.val / 128; omega

/-- The activations enter the product at (b, s, i). -/
theorem activation_index (b : Fin 2) (s : Fin 2048) (o k : Fin 4096) :
    lidx_main_v9 (ix3 b s o) k = ix3 b s k :=
  funext fun a => Fin.ext (by match a with | ⟨0, _⟩ => rfl | ⟨1, _⟩ => rfl | ⟨2, _⟩ => rfl)

/-- The bias, spread over batch and sequence, is read at o. -/
theorem bias_index (b : Fin 2) (s : Fin 2048) (o : Fin 4096) :
    idx_main_v10 (idx_main_v11 (ix3 b s o)) = ix1 o :=
  funext fun a => Fin.ext (by match a with | ⟨0, _⟩ => rfl)

/-- THE REFERENCE'S RESULT is the layer of its arguments. -/
theorem result_eq (x0 : (⟨S2x2048x4096, .f32⟩ : BufTy).Contents (Elt Ideal))
    (x1 : (⟨S4096x4096, .i32⟩ : BufTy).Contents (Elt Ideal))
    (x2 x3 : (⟨S4096x32, .f32⟩ : BufTy).Contents (Elt Ideal)) (x4 : (⟨S4096, .f32⟩ : BufTy).Contents (Elt Ideal)) :
    val_main_v12 (F := Ideal) x0 x1 x2 x3 x4 = Cert.Layer.out x0 x1 x2 x3 x4 := by
  funext i
  obtain ⟨b, s, o, rfl⟩ : ∃ (b : Fin 2) (s : Fin 2048) (o : Fin 4096), i = ix3 b s o := ⟨i 0, i 1, i 2, eq_ix3 i⟩
  rw [val_main_v12_apply, val_main_v9_apply, val_main_v11_apply, val_main_v10_apply, bias_index]
  show _ + _ = Cert.Layer.entry x0 x1 x2 x3 x4 b s o
  unfold Cert.Layer.entry
  refine congrArg (· + x4 (ix1 o)) (Finset.sum_congr rfl fun k _ => ?_)
  rw [val_main_v8_apply, val_main_v7_apply, val_main_v4_apply, val_main_v1_apply, val_main_v0_apply,
    val_main_v3_apply, val_main_v2_apply, val_main_v6_apply, val_main_v5_apply,
    weight_index, group_index_zp, group_index_sc, activation_index]
  rfl

end Cert.RefRead

end
-- ==== Proof.lean ====
/-
  A quantized linear layer: a tiled kernel against its reference, equal on the extended reals.

  Both programs compute, for activations x[b, s, ·], an integer weight quantized in groups of 128 input columns with a
  scale and a zero point per output row and group, and a bias,
      out[b, s, o] = Σ_{i < 4096} x[b, s, i] · ((wq[o, i] − zp[o, i / 128]) · sc[o, i / 128]) + bias[o].
  The reference dequantizes the whole weight and contracts once.  The kernel cuts the flattened activations into 16 row
  blocks and the weight into 8 row blocks and, at each of the 128 grid points, accumulates the contraction group by
  group: 32 products over 128 columns each, added one after the other onto an accumulator that starts at zero, with the
  operands passed through a narrower float format that exact arithmetic does not see.  The two results differ only in
  how the 4096 products are grouped, and addition of extended reals is associative and commutative without any
  condition, so the inputs' finiteness is never used.

  Proof/AccumulateStep   one accumulate step of a tile, read at an entry
  Proof/LibBlockAcc      partial sums of a sequence taken in consecutive blocks
  Proof/ScratchInvariant the accumulator after g groups holds the first 128·g products, through all 32 groups
  Proof/TileValue        what one grid point leaves in its output block
  Proof/KernelArray      every block is a restriction of the layer; the blocks tile the output matrix
  Proof/KernelRun        the re-layings around the grid; the kernel's run ends at the layer of its arguments
  Proof/LayerSpec        the layer as a function of its five arguments
  Proof/RefRead          the reference's result is the layer of its arguments
-/
import proofs.«168159_j12214886990526_1_alg».proof.Defs
import proofs.«168159_j12214886990526_1_alg».proof.Proof.Gen.Kernel
import proofs.«168159_j12214886990526_1_alg».proof.Proof.Gen.Kernel.Skeleton
import proofs.«168159_j12214886990526_1_alg».proof.Proof.Gen.Kernel.Launch
import proofs.«168159_j12214886990526_1_alg».proof.Proof.Gen.Kernel.Points
import proofs.«168159_j12214886990526_1_alg».proof.Proof.Gen.Kernel.Frame
import proofs.«168159_j12214886990526_1_alg».proof.Proof.Gen.KernelIdeal
import proofs.«168159_j12214886990526_1_alg».proof.Proof.Gen.KernelIdeal.Skeleton
import proofs.«168159_j12214886990526_1_alg».proof.Proof.Gen.KernelIdeal.Launch
import proofs.«168159_j12214886990526_1_alg».proof.Proof.Gen.KernelIdeal.Points
import proofs.«168159_j12214886990526_1_alg».proof.Proof.Gen.KernelIdeal.Frame
import proofs.«168159_j12214886990526_1_alg».proof.Proof.Gen.ReferenceIdeal
import proofs.«168159_j12214886990526_1_alg».proof.Proof.Gen.ReferenceIdeal.Run
import proofs.«168159_j12214886990526_1_alg».proof.Proof.Gen.ReferenceIdeal.Read
import proofs.«168159_j12214886990526_1_alg».proof.Proof.Gen.Pre_finite_inputs
import proofs.«168159_j12214886990526_1_alg».proof.Proof.KernelRun
import proofs.«168159_j12214886990526_1_alg».proof.Proof.RefRead
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel's text was rewritten to read it on the extended reals. -/
theorem preserves : Cert.preserves_Kernel_KernelIdeal := trivial

/-- From arguments that agree, the kernel ends at the layer of its arguments and the reference at the layer of its
    own: one function of equal arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.RefRead.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
